-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .bf16⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S1x1x4096, .f32⟩
  | .hbm, ⟨5, _⟩ => ⟨S4x2048x4096, .f32⟩
  | .hbm, ⟨6, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each of the body's three control cases leaves behind, as the body's stored values of what it loaded.

  The accumulator is a whole 1024 x 1024 buffer that the body reads and overwrites whole, so after a case it holds the
  value of the case's last store into it:
  * at the first slice of the contraction the body zeroes it and then adds the slice's product: step (reset) x w;
  * at every later slice it adds the slice's product to what the point before left: step acc x w;
  * at the last slice it also stores accumulator + bias into the output block, reading the accumulator back after the
    step's store: bias (step acc x w) b.
  All three hold for any float instance: nothing is computed here, the stores are only read back.
-/
import proofs.«129690_g16028817949059_cont_7to1_305_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First slice: the accumulator ends at the step applied to the zero block. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle slice: the accumulator ends at the step applied to what it held. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) hz]
  simp only [View.readAt_eq_ld, harg3.read_unread, harg4.read_unread, harg7.read_unread,
    View.ld_unit_zero (S := S1024x1024) hz]

/-- The last slice: the accumulator likewise, -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) hz]
  simp only [View.readAt_eq_ld, harg3.read_unread, harg4.read_unread, harg7.read_unread,
    View.ld_unit_zero (S := S1024x1024) hz]

/-- and the output block ends at that accumulator plus the bias row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg7.read_unread,
    View.ld_unit_zero (S := S1024x1024) hz, View.ld_unit_zero (S := S1x1024) hz]

end Cert.KernelIdeal.Pieces

end
-- ==== Proof.Payload.lean ====
/-
  The body's three stored values, read at an index over the extended reals.

  * the reset value is the zero block;
  * the accumulating step leaves, at row `p` and column `q` of the 1024 x 1024 block, what the accumulator held there
    plus the contraction over the 1024 features of the slice: sum over `k` of x[p, k] * w[q, k] (both operands carry the
    contracted feature on their second axis, so the product is x times the transpose of w);
  * the final step adds the bias row entry of column `q` to every row.

  The narrowing of the operands to the 16-bit format is the identity on the extended reals, so it does not appear.
-/
import proofs.«129690_g16028817949059_cont_7to1_305_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The contraction's operand indices -/

theorem lhs_row (i : S1024x1024.Idx) (r : dot_S1024x1024_S1024x1024_S1024x1024_1_1_0_0_n_n.contr.Idx) :
    (dot_S1024x1024_S1024x1024_S1024x1024_1_1_0_0_n_n.lhsIdx i r 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem lhs_feature (i : S1024x1024.Idx) (r : dot_S1024x1024_S1024x1024_S1024x1024_1_1_0_0_n_n.contr.Idx) :
    (dot_S1024x1024_S1024x1024_S1024x1024_1_1_0_0_n_n.lhsIdx i r 1).val = (r ⟨0, by decide⟩).val :=
  dot_S1024x1024_S1024x1024_S1024x1024_1_1_0_0_n_n.lhsIdx_val_of_single rfl i r

theorem rhs_row (i : S1024x1024.Idx) (r : dot_S1024x1024_S1024x1024_S1024x1024_1_1_0_0_n_n.contr.Idx) :
    (dot_S1024x1024_S1024x1024_S1024x1024_1_1_0_0_n_n.rhsIdx i r 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem rhs_feature (i : S1024x1024.Idx) (r : dot_S1024x1024_S1024x1024_S1024x1024_1_1_0_0_n_n.contr.Idx) :
    (dot_S1024x1024_S1024x1024_S1024x1024_1_1_0_0_n_n.rhsIdx i r 1).val = (r ⟨0, by decide⟩).val :=
  dot_S1024x1024_S1024x1024_S1024x1024_1_1_0_0_n_n.rhsIdx_val_of_single rfl i r

/-! ## The three stored values at an index -/

/-- The reset stores the zero block. -/
theorem reset_apply (i : S1024x1024.Idx) : k0_pay1 (F := Ideal) i = 0 := by
  unfold k0_pay1
  rw [shapeCast_self]
  exact Ideal.ofBits_zero_f32

/-- One slice's product: x times the transpose of w, over the slice's 1024 features. -/
def sliceDot (x w : Vec Ideal S1024x1024 .bf16) (p q : Fin 1024) : EReal :=
  ∑ k : Fin 1024, x (ix2 p k) * w (ix2 q k)

/-- The accumulating step: the accumulator plus the slice's product. -/
theorem step_apply (acc : Vec Ideal S1024x1024 .f32) (x w : Vec Ideal S1024x1024 .bf16) (p q : Fin 1024) :
    k0_pay2 (F := Ideal) acc x w (ix2 p q) = acc (ix2 p q) + sliceDot x w p q := by
  unfold k0_pay2 sliceDot
  simp only [shapeCast_self]
  rw [addf_apply]
  refine congrArg (acc (ix2 p q) + ·) ?_
  simp only [matmul]
  rw [Ideal.matmul_constant_zero_apply,
    ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q)
      ((ValueIdx.contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_feature _ _).trans hk)
  have er : dot_S1024x1024_S1024x1024_S1024x1024_1_1_0_0_n_n.rhsIdx (ix2 p q)
      ((ValueIdx.contrEquiv1 dot_S1024x1024_S1024x1024_S1024x1024_1_1_0_0_n_n 1024 rfl rfl).symm k) = ix2 q k :=
    funext fun a => Fin.ext (by
      match a with
      | ⟨0, _⟩ => exact rhs_row _ _
      | ⟨1, _⟩ => exact (rhs_feature _ _).trans hk)
  rw [el, er]

/-- The final step: the accumulator plus the bias entry of the column, on every row. -/
theorem bias_apply (acc : Vec Ideal S1024x1024 .f32) (b : Vec Ideal S1x1024 .f32) (p q : Fin 1024) :
    k0_pay3 (F := Ideal) acc b (ix2 p q) = acc (ix2 p q) + b (ix2 0 q) := by
  unfold k0_pay3
  simp only [shapeCast_self]
  rw [addf_apply]
  rw [broadcastTo_apply b broadcasts_S1x1024_S1024x1024 (ix2 p q) (ix2 0 q) (fun a => by
    match a with
    | ⟨0, _⟩ => rfl
    | ⟨1, _⟩ => rfl)]

end Cert.KernelIdeal.Payload

end
-- ==== Proof.Blocks.lean ====
/-
  The windows' blocks, read off the arrays the region finds, and those arrays read off the arguments.

  The grid is 4 x 8 x 4 (column block of the result, row block, slice of the contraction), the last coordinate
  moving fastest, so the point at linear position t has slice t % 4, row block (t / 4) % 8 and column block
  (t / 32) % 4. At that point the kernel is handed rows 1024 * ((t / 4) % 8) .. of the activations and rows
  1024 * ((t / 32) % 4) .. of the weights, both restricted to the features 1024 * (t % 4) .., and the bias entries
  1024 * ((t / 32) % 4) ..; the result block it may write is (row block, column block).

  Before the region, the activations are flattened from (4, 2048, 4096) to (8192, 4096) (row 2048 * b + s), both
  matrix operands are narrowed to a 16-bit float format, which on the extended reals is the identity, and the bias
  gets a leading unit axis.
-/
import proofs.«129690_g16028817949059_cont_7to1_305_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic Idealize.SL.Sem Idealize.ShloMosaic.ValueIdx

/-! ## The index maps over the grid -/

/-- Each window's block index at the point at linear position `t`, in closed form (decided over the 128 points). -/
theorem index_maps : ∀ t : Fin cfg0.N,
    win0_0.index t (0 : Fin 2) = (t.val / 4) % 8 ∧ win0_0.index t (1 : Fin 2) = t.val % 4
    ∧ win0_1.index t (0 : Fin 2) = (t.val / 32) % 4 ∧ win0_1.index t (1 : Fin 2) = t.val % 4
    ∧ win0_2.index t (0 : Fin 2) = 0 ∧ win0_2.index t (1 : Fin 2) = (t.val / 32) % 4
    ∧ win0_3.index t (0 : Fin 2) = (t.val / 4) % 8 ∧ win0_3.index t (1 : Fin 2) = (t.val / 32) % 4 :=
  (by decide +kernel : ∀ t : Fin grid0.N, _)

/-! ## The blocks, for any float instance -/

section Any

variable {F : FTy → Type} [FloatOps F]
variable (m : (ℓ : Loc nD τ sig) → Buf (Elt F) ℓ)

/-- The activations' block: row `p`, feature `k` of the block is row 1024 * ((t / 4) % 8) + p, feature 1024 * (t % 4) + k. -/
theorem x_block (c : Dev nD) (t : Fin cfg0.N) (p k : Fin 1024) :
    (iblk m c 0 t : Vec F S1024x1024 .bf16) (ix2 p k)
      = V m c main_v1 (ix2 (⟨1024 * ((t.val / 4) % 8) + p.val, by omega⟩ : Fin 8192) (⟨1024 * (t.val % 4) + k.val, by omega⟩ : Fin 4096)) := by
  unfold iblk
  rw [View.read_apply]
  show V m c main_v1 _ = V m c main_v1 _
  obtain ⟨e0, e1, -⟩ := index_maps t
  refine congrArg (V m c main_v1) (funext fun a => Fin.ext ?_)
  match a with
  | ⟨0, _⟩ => show win0_0.index t (0 : Fin 2) * 1024 + 1 * p.val = 1024 * ((t.val / 4) % 8) + p.val; rw [e0]; omega
  | ⟨1, _⟩ => show win0_0.index t (1 : Fin 2) * 1024 + 1 * k.val = 1024 * (t.val % 4) + k.val; rw [e1]; omega

/-- The weights' block: row `q`, feature `k` of the block is row 1024 * ((t / 32) % 4) + q, feature 1024 * (t % 4) + k. -/
theorem w_block (c : Dev nD) (t : Fin cfg0.N) (q k : Fin 1024) :
    (iblk m c 1 t : Vec F S1024x1024 .bf16) (ix2 q k)
      = V m c main_v2 (ix2 (⟨1024 * ((t.val / 32) % 4) + q.val, by omega⟩ : Fin 4096) (⟨1024 * (t.val % 4) + k.val, by omega⟩ : Fin 4096)) := by
  unfold iblk
  rw [View.read_apply]
  show V m c main_v2 _ = V m c main_v2 _
  obtain ⟨-, -, e2, e3, -⟩ := index_maps t
  refine congrArg (V m c main_v2) (funext fun a => Fin.ext ?_)
  match a with
  | ⟨0, _⟩ => show win0_1.index t (0 : Fin 2) * 1024 + 1 * q.val = 1024 * ((t.val / 32) % 4) + q.val; rw [e2]; omega
  | ⟨1, _⟩ => show win0_1.index t (1 : Fin 2) * 1024 + 1 * k.val = 1024 * (t.val % 4) + k.val; rw [e3]; omega

/-- The bias block: entry `q` of the block is entry 1024 * ((t / 32) % 4) + q of the bias row. -/
theorem b_block (c : Dev nD) (t : Fin cfg0.N) (q : Fin 1024) :
    (iblk m c 2 t : Vec F S1x1024 .f32) (ix2 (0 : Fin 1) q)
      = V m c main_v3 (ix2 (0 : Fin 1) (⟨1024 * ((t.val / 32) % 4) + q.val, by omega⟩ : Fin 4096)) := by
  unfold iblk
  rw [View.read_apply]
  show V m c main_v3 _ = V m c main_v3 _
  obtain ⟨-, -, -, -, e4, e5, -⟩ := index_maps t
  refine congrArg (V m c main_v3) (funext fun a => Fin.ext ?_)
  match a with
  | ⟨0, _⟩ => show win0_2.index t (0 : Fin 2) * 1 + 1 * (0 : Fin 1).val = (0 : Fin 1).val; rw [e4]; rfl
  | ⟨1, _⟩ => show win0_2.index t (1 : Fin 2) * 1024 + 1 * q.val = 1024 * ((t.val / 32) % 4) + q.val; rw [e5]; omega

/-! ## The arrays the region finds, after the host operations before it -/

/-- The activations, flattened and narrowed. -/
theorem x_found (c : Dev nD) : (V m c main_v1 : S8192x4096.Idx → Elt F .bf16)
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- The weights, narrowed. -/
theorem w_found (c : Dev nD) : (V m c main_v2 : S4096x4096.Idx → Elt F .bf16)
    = truncf .bf16 (m ((c : Thread nD τ).loc main_arg1)) bitsLt_bf16_f32 := by
  show StableHlo.after hostOps0 (fun b => m (c, b)) (Proc.devRef .tc main_v2) = _
  after_results

/-- The bias as a one-row matrix. -/
theorem b_found (c : Dev nD) : (V m c main_v3 : S1x4096.Idx → Elt F .f32)
    = shapeCast S1x4096 (m ((c : Thread nD τ).loc main_arg2)) shapeCasts_S4096_S1x4096 := by
  show StableHlo.after hostOps0 (fun b => m (c, b)) (Proc.devRef .tc main_v3) = _
  after_results
  rfl

end Any

/-! ## The same arrays at an index, on the extended reals -/

section AtIdeal

variable (m : (ℓ : Loc nD τ sig) → Buf (Elt Ideal) ℓ)

/-- The activations as the region finds them, an extended-real function of (row, feature). -/
def xArr (c : Dev nD) : S8192x4096.Idx → EReal := V m c main_v1
/-- The weights as the region finds them, of (output feature, input feature). -/
def wArr (c : Dev nD) : S4096x4096.Idx → EReal := V m c main_v2
/-- The bias as the region finds it, one row. -/
def bArr (c : Dev nD) : S1x4096.Idx → EReal := V m c main_v3

/-- Row 2048 * b + s of the flattened activations is row (b, s) of the argument; narrowing changes nothing. -/
theorem x_found_apply (c : Dev nD) (r : Fin 8192) (b : Fin 4) (s : Fin 2048) (hr : r.val = 2048 * b.val + s.val) (d : Fin 4096) :
    xArr m c (ix2 r d) = m ((c : Thread nD τ).loc main_arg0) (ix3 b s d) := by
  unfold xArr
  rw [x_found m c]
  show shapeCast S8192x4096 (m ((c : Thread nD τ).loc main_arg0)) shapeCasts_S4x2048x4096_S8192x4096 (ix2 r d) = _
  exact shapeCast_apply _ _ _ (ix3 b s d) (by
    rw [Shape.rowMajor_val_three, Shape.rowMajor_val_two]
    show (b.val * 2048 + s.val) * 4096 + d.val = r.val * 4096 + d.val
    omega)

/-- The weights the region finds are the argument's. -/
theorem w_found_apply (c : Dev nD) (i : S4096x4096.Idx) :
    wArr m c i = m ((c : Thread nD τ).loc main_arg1) i := by
  unfold wArr
  rw [w_found m c]
  rfl

/-- Entry n of the one-row bias is entry n of the argument. -/
theorem b_found_apply (c : Dev nD) (n : Fin 4096) :
    bArr m c (ix2 (0 : Fin 1) n) = m ((c : Thread nD τ).loc main_arg2) (ix1 n) := by
  unfold bArr
  rw [b_found m c]
  exact shapeCast_apply _ _ _ (ix1 n) (by
    rw [Shape.rowMajor_val_one, Shape.rowMajor_val_two]
    show n.val = (0 : Fin 1).val * 4096 + n.val
    show n.val = 0 * 4096 + n.val
    omega)

end AtIdeal

end Cert.KernelIdeal.Blocks

end
-- ==== Proof.SlicedSum.lean ====
/-
  The one law that joins the two sides: a sum over 4096 consecutive terms is the sum of the sums over its four
  consecutive slices of 1024 terms. It holds in every commutative additive monoid (only associativity and
  commutativity of + are used), so on the extended reals it needs no finiteness of the terms.
-/
import Idealize.ShloMosaic.Lib.ValueIdx

namespace Cert.SlicedSum

open Finset

/-- `n` consecutive slices of length `m` make up the first `m * n` terms. -/
theorem sum_range_slices {β : Type*} [AddCommMonoid β] (g : ℕ → β) (m : ℕ) :
    ∀ n : ℕ, ∑ s ∈ range n, ∑ k ∈ range m, g (m * s + k) = ∑ d ∈ range (m * n), g d
  | 0 => by simp
  | n + 1 => by
    rw [sum_range_succ, sum_range_slices g m n, Nat.mul_succ, sum_range_add]

/-- Four slices of 1024 terms, each indexed by its own `Fin 1024`, against the one sum indexed by `Fin 4096`. -/
theorem sum_four_slices {β : Type*} [AddCommMonoid β] (g : ℕ → β) :
    ∑ s ∈ range 4, ∑ k : Fin 1024, g (1024 * s + k.val) = ∑ d : Fin 4096, g d.val := by
  rw [Fin.sum_univ_eq_sum_range g 4096, show (4096 : ℕ) = 1024 * 4 from rfl, ← sum_range_slices g 1024 4]
  exact sum_congr rfl fun s _ => Fin.sum_univ_eq_sum_range (fun k => g (1024 * s + k)) 1024

end Cert.SlicedSum
-- ==== Proof.Accumulate.lean ====
/-
  The accumulator across the four slices of the contraction, and the block the last slice writes out.

  Points 4a, 4a + 1, 4a + 2, 4a + 3 of the grid share their row block and column block and visit the four slices of
  the 4096 input features in order. The accumulator is reset to the zero block at 4a and receives one slice's product
  at each of the four points, so after point 4a + 3 it holds, at row p and column q of the block,

      0 + (S_0 + S_1 + S_2 + S_3),   S_j = sum over k < 1024 of x[row, 1024 j + k] * w[col, 1024 j + k],

  which is the whole contraction over the 4096 features: a finite sum may be cut into consecutive slices in any
  commutative additive monoid, so no finiteness of the entries is used. The last point then stores that plus the
  bias entry of the column.
-/
import proofs.«129690_g16028817949059_cont_7to1_305_2_alg».proof.Proof.Pieces
import proofs.«129690_g16028817949059_cont_7to1_305_2_alg».proof.Proof.Payload
import proofs.«129690_g16028817949059_cont_7to1_305_2_alg».proof.Proof.Blocks
import proofs.«129690_g16028817949059_cont_7to1_305_2_alg».proof.Proof.SlicedSum

set_option maxRecDepth 16384

noncomputable section

namespace Cert.KernelIdeal.Accumulate

open Cert.KernelIdeal Cert.KernelIdeal.Gen
open Idealize.ShloMosaic Idealize.ShloMosaic.TcCoe Idealize.SL.Sem Idealize.ShloMosaic.ValueIdx
open Idealize.ShloMosaic.Pipeline (accAt eq_accAt_of_mod accAt_add_apply)

variable (m : (ℓ : Loc nD τ sig) → Buf (Elt Ideal) ℓ)

/-! ## The rows, the columns and the terms -/

/-- The activations' row that row `p` of the block at position `n` is. -/
def rowOf (n : ℕ) (p : Fin 1024) : Fin 8192 := ⟨1024 * ((n / 4) % 8) + p.val, by omega⟩
/-- The weights' row (the result's column) that column `q` of the block at position `n` is. -/
def colOf (n : ℕ) (q : Fin 1024) : Fin 4096 := ⟨1024 * ((n / 32) % 4) + q.val, by omega⟩

/-- One term of the contraction of activations' row `r` with weights' row `n`, at feature `d` (read modulo 4096, so that
    it is defined at every natural). -/
def term (c : Dev nD) (r : Fin 8192) (n : Fin 4096) (d : ℕ) : EReal :=
  Blocks.xArr m c (ix2 r (⟨d % 4096, Nat.mod_lt _ (by decide)⟩ : Fin 4096))
    * Blocks.wArr m c (ix2 n (⟨d % 4096, Nat.mod_lt _ (by decide)⟩ : Fin 4096))

/-- What the point at position `n` adds to the accumulator at an index of the block: its slice of the contraction. -/
def addend (c : Dev nD) (n : ℕ) (i : S1024x1024.Idx) : EReal :=
  ∑ k : Fin 1024, term m c (rowOf n (i 0)) (colOf n (i 1)) (1024 * (n % 4) + k.val)

/-- The slice's product of the blocks handed to point `t` is that addend. -/
theorem slice_addend (c : Dev nD) (t : Fin cfg0.N) (p q : Fin 1024) :
    Payload.sliceDot (iblk m c 0 t) (iblk m c 1 t) p q = addend m c t.val (ix2 p q) := by
  unfold Payload.sliceDot addend term
  refine Finset.sum_congr rfl fun k _ => ?_
  rw [Blocks.x_block m c t p k, Blocks.w_block m c t q k]
  have e : (⟨(1024 * (t.val % 4) + k.val) % 4096, Nat.mod_lt _ (by decide)⟩ : Fin 4096)
      = ⟨1024 * (t.val % 4) + k.val, by omega⟩ := Fin.ext (Nat.mod_eq_of_lt (by omega))
  rw [e]
  rfl

/-! ## The accumulator, point by point -/

/-- At a first slice the accumulator ends at the step applied to the zero block. -/
theorem acc_reset (c : Dev nD) (t : Fin cfg0.N) (h0 : t.val % 4 = 0) :
    (outsAt0 m c t.val t.isLt).2 = k0_pay2 (k0_pay1 (F := Ideal)) (iblk m c 0 t) (iblk m c 1 t) := by
  have h1 : ¬t.val % 4 = 3 := by omega
  rw [outsAt0_A m c t h0 h1]
  dsimp only
  exact Pieces.acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At every other slice it ends at the step applied to what the point before left. -/
theorem acc_step (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    exact Pieces.acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.acc_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At a last slice the output block ends at the accumulator plus the bias row. -/
theorem out_at_last (c : Dev nD) (t : Fin cfg0.N) (h3 : t.val % 4 = 3) :
    (outsAt0 m c t.val t.isLt).1 = k0_pay3 (outsAt0 m c t.val t.isLt).2 (iblk m c 2 t) := by
  have h0 : ¬t.val % 4 = 0 := by omega
  rw [outsAt0_C m c t h0 h3]
  dsimp only
  exact (Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2).trans
    (congrArg (fun z => k0_pay3 z (iblk m c 2 t))
      (Pieces.acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
        (iblk m c 0 t) (iblk m c 1 t) (iblk m c 2 t) (outsAt0 m c (t.val - 1) (Nat.lt_of_le_of_lt (Nat.sub_le _ _) t.isLt)).2).symm)

/-! ## The fold over a run of four points -/

/-- The accumulator after the point at position `n`. -/
def accAfter (c : Dev nD) (n : ℕ) (h : n < cfg0.N) : S1024x1024.Idx → EReal := (outsAt0 m c n h).2
/-- Its value at a first slice, -/
def resetAt (c : Dev nD) (n : ℕ) (h : n < cfg0.N) : S1024x1024.Idx → EReal :=
  k0_pay2 (k0_pay1 (F := Ideal)) (iblk m c 0 ⟨n, h⟩) (iblk m c 1 ⟨n, h⟩)
/-- and the step from the point before at the others. -/
def stepAt (c : Dev nD) (n : ℕ) (h : n < cfg0.N) (acc : S1024x1024.Idx → EReal) : S1024x1024.Idx → EReal :=
  k0_pay2 (F := Ideal) acc (iblk m c 0 ⟨n, h⟩) (iblk m c 1 ⟨n, h⟩)

theorem accAfter_reset (c : Dev nD) (n : ℕ) (h : n < cfg0.N) (h0 : n % 4 = 0) : accAfter m c n h = resetAt m c n h :=
  acc_reset m c ⟨n, h⟩ h0

theorem accAfter_step (c : Dev nD) (n : ℕ) (h : n + 1 < cfg0.N) (h0 : ¬(n + 1) % 4 = 0) :
    accAfter m c (n + 1) h = stepAt m c (n + 1) h (accAfter m c n (Nat.lt_of_succ_lt h)) :=
  acc_step m c ⟨n + 1, h⟩ h0

/-- The reset value at an index: zero plus the point's addend. -/
theorem resetAt_apply (c : Dev nD) (n : ℕ) (h : n < cfg0.N) (i : S1024x1024.Idx) :
    resetAt m c n h i = (0 : EReal) + addend m c n i := by
  obtain ⟨p, q, rfl⟩ : ∃ (p q : Fin 1024), i = ix2 p q := ⟨i 0, i 1, eq_ix2 i⟩
  unfold resetAt
  refine (Payload.step_apply (k0_pay1 (F := Ideal)) (iblk m c 0 ⟨n, h⟩) (iblk m c 1 ⟨n, h⟩) p q).trans ?_
  rw [Payload.reset_apply]
  exact congrArg ((0 : EReal) + ·) (slice_addend m c ⟨n, h⟩ p q)

/-- The step at an index: what was there plus the point's addend. -/
theorem stepAt_apply (c : Dev nD) (n : ℕ) (h : n < cfg0.N) (acc : S1024x1024.Idx → EReal) (i : S1024x1024.Idx) :
    stepAt m c n h acc i = acc i + addend m c n i := by
  obtain ⟨p, q, rfl⟩ : ∃ (p q : Fin 1024), i = ix2 p q := ⟨i 0, i 1, eq_ix2 i⟩
  unfold stepAt
  refine (Payload.step_apply acc (iblk m c 0 ⟨n, h⟩) (iblk m c 1 ⟨n, h⟩) p q).trans ?_
  exact congrArg (acc (ix2 p q) + ·) (slice_addend m c ⟨n, h⟩ p q)

/-- After the last slice of a run the accumulator holds the whole contraction over the 4096 features. -/
theorem acc_at_last (c : Dev nD) (t : Fin cfg0.N) (h3 : t.val % 4 = 3) (p q : Fin 1024) :
    (outsAt0 m c t.val t.isLt).2 (ix2 p q)
      = ∑ d : Fin 4096, Blocks.xArr m c (ix2 (rowOf t.val p) d)
          * Blocks.wArr m c (ix2 (colOf t.val q) d) := by
  have h' : 4 * (t.val / 4) + t.val % 4 < cfg0.N := by rw [Nat.div_add_mod]; exact t.isLt
  have hfold : accAfter m c t.val t.isLt = accAt (resetAt m c) (stepAt m c) (4 * (t.val / 4)) (t.val % 4) h' :=
    eq_accAt_of_mod (accAfter m c) 4 (resetAt m c) (stepAt m c) (accAfter_reset m c) (accAfter_step m c) (by decide)
      t.val t.isLt h'
  have hsum := accAt_add_apply (resetAt m c) (stepAt m c) (fun _ => (0 : EReal)) (addend m c) (4 * (t.val / 4)) 3
    (fun h i => resetAt_apply m c _ h i) (fun n h acc i _ _ => stepAt_apply m c n h acc i)
    (t.val % 4) (by omega) h' (ix2 p q)
  show accAfter m c t.val t.isLt (ix2 p q) = _
  rw [hfold, hsum, zero_add, h3]
  have hterm : ∀ d : Fin 4096, term m c (rowOf t.val p) (colOf t.val q) d.val
      = Blocks.xArr m c (ix2 (rowOf t.val p) d)
        * Blocks.wArr m c (ix2 (colOf t.val q) d) := fun d => by
    unfold term
    have e : (⟨d.val % 4096, Nat.mod_lt _ (by decide)⟩ : Fin 4096) = d := Fin.ext (Nat.mod_eq_of_lt d.isLt)
    rw [e]
  refine Eq.trans ?_ (Finset.sum_congr rfl fun d _ => hterm d)
  refine Eq.trans ?_ (SlicedSum.sum_four_slices (term m c (rowOf t.val p) (colOf t.val q)))
  refine Finset.sum_congr rfl fun s hs => ?_
  have hs4 : s < 4 := Finset.mem_range.mp hs
  unfold addend
  have er : rowOf (4 * (t.val / 4) + s) ((ix2 p q : S1024x1024.Idx) 0) = rowOf t.val p :=
    Fin.ext (by show 1024 * (((4 * (t.val / 4) + s) / 4) % 8) + p.val = 1024 * ((t.val / 4) % 8) + p.val; omega)
  have ec : colOf (4 * (t.val / 4) + s) ((ix2 p q : S1024x1024.Idx) 1) = colOf t.val q :=
    Fin.ext (by show 1024 * (((4 * (t.val / 4) + s) / 32) % 4) + q.val = 1024 * ((t.val / 32) % 4) + q.val; omega)
  have em : (4 * (t.val / 4) + s) % 4 = s := by omega
  rw [er, ec, em]

end Cert.KernelIdeal.Accumulate

end
-- ==== Proof.Linear.lean ====
/-
  The function both programs compute, index by index, on the extended reals: the affine map of a linear layer,

      out[b, s, n] = (sum over the 4096 input features d of x[b, s, d] * w[n, d]) + bias[n].

  Stated once over the literal shapes, so that the kernel's result array and the reference's are compared with one term.
-/
import Idealize.ShloMosaic.PureOps.Ideal
import Idealize.ShloMosaic.Lib.ValueIdx

noncomputable section

namespace Cert.Linear

open Idealize.ShloMosaic Idealize.ShloMosaic.ValueIdx

/-- The linear layer's output at (b, s, n). -/
def linear (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun i => (∑ d : Fin 4096, x (ix3 (i 0) (i 1) d) * w (ix2 (i 2) d)) + bias (ix1 (i 2))

theorem linear_apply (x : (⟨3, ![4, 2048, 4096]⟩ : Shape).Idx → EReal) (w : (⟨2, ![4096, 4096]⟩ : Shape).Idx → EReal)
    (bias : (⟨1, ![4096]⟩ : Shape).Idx → EReal) (b : Fin 4) (s : Fin 2048) (n : Fin 4096) :
    linear x w bias (ix3 b s n) = (∑ d : Fin 4096, x (ix3 b s d) * w (ix2 n d)) + bias (ix1 n) := rfl

end Cert.Linear

end
-- ==== Proof.Whole.lean ====
/-
  The kernel's result array, as one function of the arguments.

  A point at the last slice of a run (position t with t % 4 = 3) is the only one that writes its output block back;
  the block it writes is (row block (t / 4) % 8, column block (t / 32) % 4) of the flat 8192 x 4096 result, and it
  holds the whole contraction plus the bias entry of the column. The 8 x 4 such blocks tile the flat result (the
  point that writes row r and column n is 32 * (n / 1024) + 4 * (r / 1024) + 3), so the flat result is that function
  everywhere. After the region it is reshaped to (4, 2048, 4096): entry (b, s, n) is the flat entry (2048 b + s, n).
-/
import proofs.«129690_g16028817949059_cont_7to1_305_2_alg».proof.Proof.Accumulate
import proofs.«129690_g16028817949059_cont_7to1_305_2_alg».proof.Proof.Linear
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)
open Cert.KernelIdeal.Accumulate (rowOf colOf)
open Cert.KernelIdeal.Blocks (xArr wArr bArr)

variable (m : (ℓ : Loc nD τ sig) → Buf (Elt Ideal) ℓ) (ρ : Dev nD → PrngReg)

/-! ## The flat result -/

/-- The flat result at (row r, column n): the contraction of activations' row r with weights' row n, plus bias entry n. -/
def flat (c : Dev nD) : S8192x4096.Idx → EReal := fun i =>
  (∑ d : Fin 4096, xArr m c (ix2 (i 0) d) * wArr m c (ix2 (i 1) d)) + bArr m c (ix2 (0 : Fin 1) (i 1))

/-- The block a last-slice point leaves in the output's staging buffer is the flat result on the block's rows and columns. -/
theorem out_block (c : Dev nD) (t : Fin cfg0.N) (h3 : t.val % 4 = 3) :
    (outsAt0 m c t.val t.isLt).1 = fun j : S1024x1024.Idx => flat m c (ix2 (rowOf t.val (j 0)) (colOf t.val (j 1))) := by
  funext j
  obtain ⟨p, q, rfl⟩ : ∃ (p q : Fin 1024), j = ix2 p q := ⟨j 0, j 1, eq_ix2 j⟩
  rw [Accumulate.out_at_last m c t h3]
  refine (Payload.bias_apply (outsAt0 m c t.val t.isLt).2 (iblk m c 2 t) p q).trans ?_
  rw [Accumulate.acc_at_last m c t h3 p q, Blocks.b_block m c t q]
  rfl

/-- What a flushing point writes back is its block of the flat result. -/
theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  show (cfg0.win 3).cut (grid0.coords t) ((dats m 0 c).after 3 t) = _
  rw [after0_3, out_block m c t h3]
  obtain ⟨-, -, -, -, -, -, e6, e7⟩ := Blocks.index_maps t
  funext j
  show flat m c (ix2 (rowOf t.val (j 0)) (colOf t.val (j 1))) = flat m c (((cfg0.win 3).blk t).view.emb j)
  refine congrArg (flat m c) (funext fun a => Fin.ext ?_)
  match a with
  | ⟨0, _⟩ => show 1024 * ((t.val / 4) % 8) + (j 0).val = win0_3.index t (0 : Fin 2) * 1024 + 1 * (j 0).val; rw [e6]; omega
  | ⟨1, _⟩ => show 1024 * ((t.val / 32) % 4) + (j 1).val = win0_3.index t (1 : Fin 2) * 1024 + 1 * (j 1).val; rw [e7]; omega

/-- Every entry of the flat result is in the block of some flushing point. -/
theorem covered (i : S8192x4096.Idx) :
    ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  have ht : 32 * ((i 1).val / 1024) + 4 * ((i 0).val / 1024) + 3 < cfg0.N := by rw [hN]; omega
  obtain ⟨-, -, -, -, -, -, e6, e7⟩ := Blocks.index_maps ⟨_, ht⟩
  refine ⟨⟨_, ht⟩, (flush0_3 ⟨_, ht⟩).mpr (by show (32 * ((i 1).val / 1024) + 4 * ((i 0).val / 1024) + 3) % 4 = 3; omega), ?_⟩
  show i ∈ ((View.whole main_v4).slice (win0_3.rect ⟨_, ht⟩)).set
  rw [View.set_slice_whole, Rect.mem_set_unit]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e6]
    show ((32 * ((i 1).val / 1024) + 4 * ((i 0).val / 1024) + 3) / 4) % 8 * 1024 ≤ (i 0).val
      ∧ (i 0).val < ((32 * ((i 1).val / 1024) + 4 * ((i 0).val / 1024) + 3) / 4) % 8 * 1024 + 1024
    omega
  | ⟨1, _⟩ =>
    show win0_3.index ⟨_, ht⟩ (1 : Fin 2) * 1024 ≤ (i 1).val ∧ (i 1).val < win0_3.index ⟨_, ht⟩ (1 : Fin 2) * 1024 + 1024
    rw [e7]
    show ((32 * ((i 1).val / 1024) + 4 * ((i 0).val / 1024) + 3) / 32) % 4 * 1024 ≤ (i 1).val
      ∧ (i 1).val < ((32 * ((i 1).val / 1024) + 4 * ((i 0).val / 1024) + 3) / 32) % 4 * 1024 + 1024
    omega

/-- So the flat result array ends holding `flat`. -/
theorem final (c : Dev nD) : (dats m 0 c).arrAt 3 cfg0.N = flat m c :=
  (dats m 0 c).arrAt_eq_of_cover 3 (flat m c) (fun t hf => flushed_eq m c t hf) (fun i => covered i)

/-! ## After the region: the reshape to (4, 2048, 4096) -/

/-- The kernel's result. -/
def result (c : Dev nD) : S4x2048x4096.Idx → EReal :=
  shapeCast S4x2048x4096 (flat m c) shapeCasts_S8192x4096_S4x2048x4096

theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = flat m c := (Pipeline.withArrays_arr spec0 launch0.win.arr_inj c _ _ 3).trans (final m c)
  rw [e]
  rfl

/-! ## The run, read -/

/-- Every weakly fair execution terminates with the result array at `result` and the three arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The result is the linear layer's output -/

theorem result_eq (c : Dev nD) :
    result m c = Cert.Linear.linear (m ((c.tc : Thread nD τ).loc main_arg0)) (m ((c.tc : Thread nD τ).loc main_arg1))
      (m ((c.tc : Thread nD τ).loc main_arg2)) := by
  funext i
  obtain ⟨b, s, n, rfl⟩ : ∃ (b : Fin 4) (s : Fin 2048) (n : Fin 4096), i = ix3 b s n := ⟨i 0, i 1, i 2, eq_ix3 i⟩
  have hr : 2048 * b.val + s.val < 8192 := by omega
  unfold result
  rw [shapeCast_apply (flat m c) shapeCasts_S8192x4096_S4x2048x4096 (ix3 b s n) (ix2 (⟨2048 * b.val + s.val, hr⟩ : Fin 8192) n) (by
    rw [Shape.rowMajor_val_two, Shape.rowMajor_val_three]
    show (2048 * b.val + s.val) * 4096 + n.val = (b.val * 2048 + s.val) * 4096 + n.val
    omega)]
  rw [Cert.Linear.linear_apply]
  show (∑ d : Fin 4096, xArr m c (ix2 (⟨2048 * b.val + s.val, hr⟩ : Fin 8192) d) * wArr m c (ix2 n d)) + bArr m c (ix2 (0 : Fin 1) n) = _
  rw [Blocks.b_found_apply m c n]
  refine congrArg (· + m ((c.tc : Thread nD τ).loc main_arg2) (ix1 n)) (Finset.sum_congr rfl fun d _ => ?_)
  rw [Blocks.x_found_apply m c ⟨2048 * b.val + s.val, hr⟩ b s rfl d, Blocks.w_found_apply m c (ix2 n d)]

end Cert.KernelIdeal.Whole

end
-- ==== Proof.Reference.lean ====
/-
  The reference's result read at an index is the linear layer's output: the einsum is one contraction over the 4096
  input features of x[b, s, d] * w[n, d], and the bias, broadcast over batch and sequence, adds bias[n].
-/
import proofs.«129690_g16028817949059_cont_7to1_305_2_alg».proof.Proof.Gen.ReferenceIdeal.Read
import proofs.«129690_g16028817949059_cont_7to1_305_2_alg».proof.Proof.Linear
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Read
open Idealize.ShloMosaic Idealize.ShloMosaic.ValueIdx

/-- The operand indices of the contraction at output index `i` and feature `k`: (i 0, i 1, k) and (i 2, k). -/
theorem lhs_index (i : S4x2048x4096.Idx) (k : Fin 4096) : lidx_main_v0 i k = ix3 (i 0) (i 1) k :=
  funext fun a => Fin.ext (by match a with | ⟨0, _⟩ => rfl | ⟨1, _⟩ => rfl | ⟨2, _⟩ => rfl)

theorem rhs_index (i : S4x2048x4096.Idx) (k : Fin 4096) : ridx_main_v0 i k = ix2 (i 2) k :=
  funext fun a => Fin.ext (by match a with | ⟨0, _⟩ => rfl | ⟨1, _⟩ => rfl)

/-- The bias entry read at output index `i` is entry `i 2`. -/
theorem bias_index (i : S4x2048x4096.Idx) : idx_main_v1 (idx_main_v2 i) = ix1 (i 2) :=
  funext fun a => Fin.ext (by match a with | ⟨0, _⟩ => rfl)

/-- The reference's last stage is the linear layer's output. -/
theorem result_eq (x0 : S4x2048x4096.Idx → EReal) (x1 : S4096x4096.Idx → EReal) (x2 : S4096.Idx → EReal) :
    val_main_v3 (F := Ideal) x0 x1 x2 = Cert.Linear.linear x0 x1 x2 := by
  funext i
  rw [val_main_v3_apply, val_main_v0_apply, val_main_v2_apply, val_main_v1_apply]
  unfold Cert.Linear.linear
  simp only [lhs_index, rhs_index, bias_index]
  rfl

end Cert.ReferenceIdeal.Whole

end
-- ==== Proof.lean ====
/-
  A linear layer, out = x · Wᵀ + bias, computed two ways on the extended reals.

  The kernel flattens x from (4, 2048, 4096) to (8192, 4096) and tiles the product into 1024 x 1024 blocks of the result;
  for each block it walks the 4096 input features in four slices of 1024, keeping a running sum that it resets to zero
  at the first slice and to which each slice adds its partial product, and after the fourth slice it writes the running
  sum plus the bias row into the result block; the flat result is reshaped back to (4, 2048, 4096). The operands are
  narrowed to a 16-bit float format on the way in, which over the extended reals changes nothing. The reference is one
  contraction over all 4096 features plus the broadcast bias.

  The two agree entry by entry: (((0 + S_0) + S_1) + S_2) + S_3, with S_j the sum of the products over slice j, is the
  sum of the products over all 4096 features, because a finite sum in a commutative additive monoid may be cut into
  consecutive slices (Proof/SlicedSum.lean). Only associativity and commutativity of addition are used, which hold on
  all of the extended reals, so the finiteness of the inputs is never needed. The idealization rewrote no operation of
  the kernel, so there is nothing to show for it.

  Modules: Linear (the function both sides compute), SlicedSum (the law), Payload (the body's stored values at an index),
  Pieces (what each control case of the body leaves), Blocks (the blocks handed to a grid point, and the arrays the
  region finds, read off the arguments), Accumulate (the running sum over a run of four points), Whole (the result array
  and the kernel's run), Reference (the reference's result).
-/
import proofs.«129690_g16028817949059_cont_7to1_305_2_alg».proof.Defs
import proofs.«129690_g16028817949059_cont_7to1_305_2_alg».proof.Proof.Gen.Kernel
import proofs.«129690_g16028817949059_cont_7to1_305_2_alg».proof.Proof.Gen.Kernel.Skeleton
import proofs.«129690_g16028817949059_cont_7to1_305_2_alg».proof.Proof.Gen.Kernel.Launch
import proofs.«129690_g16028817949059_cont_7to1_305_2_alg».proof.Proof.Gen.Kernel.Points
import proofs.«129690_g16028817949059_cont_7to1_305_2_alg».proof.Proof.Gen.Kernel.Frame
import proofs.«129690_g16028817949059_cont_7to1_305_2_alg».proof.Proof.Gen.KernelIdeal
import proofs.«129690_g16028817949059_cont_7to1_305_2_alg».proof.Proof.Gen.KernelIdeal.Skeleton
import proofs.«129690_g16028817949059_cont_7to1_305_2_alg».proof.Proof.Gen.KernelIdeal.Launch
import proofs.«129690_g16028817949059_cont_7to1_305_2_alg».proof.Proof.Gen.KernelIdeal.Points
import proofs.«129690_g16028817949059_cont_7to1_305_2_alg».proof.Proof.Gen.KernelIdeal.Frame
import proofs.«129690_g16028817949059_cont_7to1_305_2_alg».proof.Proof.Gen.ReferenceIdeal
import proofs.«129690_g16028817949059_cont_7to1_305_2_alg».proof.Proof.Gen.Pre_finite_inputs
import proofs.«129690_g16028817949059_cont_7to1_305_2_alg».proof.Proof.Gen.ReferenceIdeal.Run
import proofs.«129690_g16028817949059_cont_7to1_305_2_alg».proof.Proof.Gen.ReferenceIdeal.Read
import proofs.«129690_g16028817949059_cont_7to1_305_2_alg».proof.Proof.Whole
import proofs.«129690_g16028817949059_cont_7to1_305_2_alg».proof.Proof.Reference
import Idealize.ShloMosaic.Adequacy
import Idealize.ShloMosaic.Init

noncomputable section

namespace Cert.Proof

open Idealize.ShloMosaic Idealize.SL.Sem

/-- The kernel as printed runs to the end, without a fault, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the three arguments, both programs end with the linear layer's output of them. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Whole.result_eq,
    (hagree c).1, (hagree c).2.1, (hagree c).2.2]
  exact (Cert.KernelIdeal.Whole.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
